-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 41
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S1x128, .f32⟩
  | .hbm, ⟨40, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelBlock.lean ====
/-
  One grid point's arithmetic, read at an index of the block.

  The body takes a block of 4000 rows of neighbour sums `a`, the same rows of the features `x`, the rows' reciprocal
  clamped in-degrees `v` (a column), the two 128 × 128 weight matrices `wl`, `wr` (already transposed and rounded on the
  host) and the bias row `b`, and stores
      (a · v) wl + x wr + b.
  At the ideal instance the roundings to bf16 are the identity and each matrix product into a zero accumulator is the
  plain sum over the contracted axis, so the entry at row `p`, column `q` of the stored block is
      Σ_k (a[p,k] · v[p,0]) · wl[k,q]  +  Σ_k x[p,k] · wr[k,q]  +  b[0,q].
-/
import proofs.«137807_j53755810677325_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Sage

open Cert.KernelIdeal Cert.KernelIdeal.Gen Idealize.ShloMosaic Idealize.ShloMosaic.ValueIdx

/-- The matrix product's operand indices, coordinate by coordinate: the left operand is read at the output's row and
    the contraction index, the right operand at the contraction index and the output's column. -/
theorem dot_lhs_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot_lhs_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
theorem dot_rhs_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
theorem dot_rhs_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- At output `(p, q)` and contraction index `k` the left operand is read at `(p, k)`. -/
theorem dot_lhs (p : Fin 4000) (q k : Fin 128) :
    dot_S4000x128_S128x128_S4000x128_1_0_0_1_n_n.lhsIdx (ix2 p q)
      ((contrEquiv1 dot_S4000x128_S128x128_S4000x128_1_0_0_1_n_n 128 rfl rfl).symm k) = ix2 p k := by
  have hk := contrEquiv1_symm_val dot_S4000x128_S128x128_S4000x128_1_0_0_1_n_n 128 rfl rfl k
  exact funext fun a => Fin.ext (by
    match a with
    | ⟨0, _⟩ => exact dot_lhs_0 _ _
    | ⟨1, _⟩ => exact (dot_lhs_1 _ _).trans hk)

/-- and the right operand at `(k, q)`. -/
theorem dot_rhs (p : Fin 4000) (q k : Fin 128) :
    dot_S4000x128_S128x128_S4000x128_1_0_0_1_n_n.rhsIdx (ix2 p q)
      ((contrEquiv1 dot_S4000x128_S128x128_S4000x128_1_0_0_1_n_n 128 rfl rfl).symm k) = ix2 k q := by
  have hk := contrEquiv1_symm_val dot_S4000x128_S128x128_S4000x128_1_0_0_1_n_n 128 rfl rfl k
  exact funext fun a => Fin.ext (by
    match a with
    | ⟨0, _⟩ => exact (dot_rhs_0 _ _).trans hk
    | ⟨1, _⟩ => exact dot_rhs_1 _ _)

/-- A [4000,128] × [128,128] product into a zero accumulator, at `(p, q)`: the sum over the contracted axis. -/
theorem mm_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  rw [dot_lhs, dot_rhs]

/-- A column [4000,1] broadcast along the rows' 128 entries reads, at `(p, q)`, the column's entry of row `p`. -/
theorem bcast_col_apply (v : S4000x1.Idx → EReal) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ =>
    show p.val = if (4000 : Nat) = 1 then 0 else p.val
    rw [if_neg (by decide)]
  | ⟨1, _⟩ => rfl

/-- The stored block at row `p`, column `q`. -/
theorem pay_apply (a x : Vec Ideal S4000x128 .f32) (v : Vec Ideal S4000x1 .f32) (wl wr : Vec Ideal S128x128 .bf16)
    (b : Vec Ideal S1x128 .f32) (p : Fin 4000) (q : Fin 128) :
    k0_pay1 (F := Ideal) a v x wl wr b (ix2 p q)
      = ((∑ k : Fin 128, (a (ix2 p k) * v (ix2 p (0 : Fin 1))) * wl (ix2 k q))
          + ∑ k : Fin 128, x (ix2 p k) * wr (ix2 k q)) + b (ix2 (0 : Fin 1) q) := by
  unfold k0_pay1
  simp only [shapeCast_self]
  refine congrArg₂ (· + ·) (congrArg₂ (· + ·) ?_ ?_) ?_
  · refine (mm_apply _ _ p q).trans (Finset.sum_congr rfl fun k _ => ?_)
    exact congrArg (· * wl (ix2 k q)) (congrArg (a (ix2 p k) * ·) (bcast_col_apply v p k))
  · exact mm_apply _ _ p q
  · exact broadcastTo_1b_ab_apply b broadcasts_S1x128_S4000x128 p q

end Cert.KernelIdeal.Sage

end
-- ==== Proof.Spec.lean ====
/-
  What the layer computes, as ONE function of the argument arrays.

  The graph has 100000 nodes with 128 features each and 640000 directed edges given as a source row and a
  destination row of node numbers. For node `r`:
    * `nbrSum x e` row `r` is the sum of the feature rows `x[src]` over the edges whose destination is `r`
      (a gather of the source rows followed by a scatter-add onto the destinations);
    * `inDeg e` entry `r` is the number of such edges (a scatter-add of ones).
  Both are kept as the host operations that produce them and are never opened: the two programs build them by the
  same operations from the same arguments.

  The output entry `(r, q)` is then
      Σ_k (nbrSum[r,k] · 1 / max(inDeg[r], 1)) · W_l[q,k]  +  Σ_k x[r,k] · W_r[q,k]  +  b[q],
  the mean of the neighbours through one linear map, the node's own features through another, and a bias.
-/
import proofs.«137807_j53755810677325_2_alg».proof.Proof.Gen.KernelIdeal
import Idealize.ShloMosaic.Lib.ValueIdx
import Idealize.ShloMosaic.PureOps.Ideal

noncomputable section

open scoped BigOperators

namespace Cert.KernelIdeal.Sage

open Cert.KernelIdeal Cert.KernelIdeal.Facts₀ Idealize.ShloMosaic Idealize.ShloMosaic.ValueIdx

/-- The destination row of the edge list, as a column of indices. -/
def dstCol (e : (⟨S2x640000, .i32⟩ : BufTy).Contents (Elt Ideal)) : (⟨S640000x1, .i32⟩ : BufTy).Contents (Elt Ideal) :=
  broadcastInDim S640000x1 ![0] bcast_S640000_S640000x1_0 (shapeCast _ (extractStridedSlice S1x640000 ![1, 0] e slices_S2x640000_S1x640000_1_0) shapeCasts_S1x640000_S640000)

/-- The source row of the edge list, negative entries wrapped once by the node count, as a column of indices. -/
def srcCol (e : (⟨S2x640000, .i32⟩ : BufTy).Contents (Elt Ideal)) : (⟨S640000x1, .i32⟩ : BufTy).Contents (Elt Ideal) :=
  broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 100000#32))) (shapeCast _ (extractStridedSlice S1x640000 ![0, 0] e slices_S2x640000_S1x640000_0_0) shapeCasts_S1x640000_S640000))

/-- Row `r`: the sum of the source feature rows over the edges into node `r`. -/
def nbrSum (x : (⟨S100000x128, .f32⟩ : BufTy).Contents (Elt Ideal)) (e : (⟨S2x640000, .i32⟩ : BufTy).Contents (Elt Ideal)) :
    (⟨S100000x128, .f32⟩ : BufTy).Contents (Elt Ideal) :=
  Host.scatterAdd scatter_S100000x128_S640000x1_S640000x128_1_0_0_1
    (broadcastInDim S100000x128 ![] bcast_S_S100000x128 (constant (F := Ideal) S_ .f32 0x00000000#32))
    (dstCol e)
    (Host.gather gather_S100000x128_S640000x1_S640000x128_1_0_n_n_0_1_1128 x (srcCol e))

/-- Entry `r`: the number of edges into node `r`. -/
def inDeg (e : (⟨S2x640000, .i32⟩ : BufTy).Contents (Elt Ideal)) : (⟨S100000, .f32⟩ : BufTy).Contents (Elt Ideal) :=
  Host.scatterAdd scatter_S100000_S640000x1_S640000_n_0_0_1
    (broadcastInDim S100000 ![] bcast_S_S100000 (constant (F := Ideal) S_ .f32 0x00000000#32))
    (dstCol e)
    (broadcastInDim S640000 ![] bcast_S_S640000 (constant (F := Ideal) S_ .f32 0x3F800000#32))

/-- One output entry from the neighbour sums, the features, the in-degrees, the two weight matrices and the bias. -/
def entry (agg x : S100000x128.Idx → EReal) (deg : S100000.Idx → EReal) (Wl Wr : S128x128.Idx → EReal) (b : S128.Idx → EReal)
    (r : Fin 100000) (q : Fin 128) : EReal :=
  ((∑ k : Fin 128, (agg (ix2 r k) * Ideal.div 1 (max (deg (ix1 r)) 1)) * Wl (ix2 q k))
    + ∑ k : Fin 128, x (ix2 r k) * Wr (ix2 q k)) + b (ix1 q)

/-- The whole output array. -/
def layer (agg x : S100000x128.Idx → EReal) (deg : S100000.Idx → EReal) (Wl Wr : S128x128.Idx → EReal) (b : S128.Idx → EReal) :
    S100000x128.Idx → EReal :=
  fun i => entry agg x deg Wl Wr b (i 0) (i 1)

theorem layer_ix2 (agg x : S100000x128.Idx → EReal) (deg : S100000.Idx → EReal) (Wl Wr : S128x128.Idx → EReal) (b : S128.Idx → EReal)
    (r : Fin 100000) (q : Fin 128) : layer agg x deg Wl Wr b (ix2 r q) = entry agg x deg Wl Wr b r q := rfl

/-- The output as a function of the five arguments. -/
def out (x : (⟨S100000x128, .f32⟩ : BufTy).Contents (Elt Ideal)) (e : (⟨S2x640000, .i32⟩ : BufTy).Contents (Elt Ideal))
    (Wl : (⟨S128x128, .f32⟩ : BufTy).Contents (Elt Ideal)) (b : (⟨S128, .f32⟩ : BufTy).Contents (Elt Ideal))
    (Wr : (⟨S128x128, .f32⟩ : BufTy).Contents (Elt Ideal)) : S100000x128.Idx → EReal :=
  layer (nbrSum x e) x (inDeg e) Wl Wr b

end Cert.KernelIdeal.Sage

end
-- ==== Proof.HostArrays.lean ====
/-
  The arrays the kernel's windows read, as the host operations before the kernel leave them.

  Before the kernel is launched the host has built, from the five arguments,
    * the neighbour sums (window 0), by the gather and scatter-add named `nbrSum`;
    * the column of reciprocal clamped in-degrees (window 2): `1 / max(inDeg, 1)`, recast from a vector to a column;
    * the two weight matrices transposed (windows 3 and 4; their rounding to bf16 is the identity at the ideal instance);
    * the bias as a one-row matrix (window 5).
  Window 1 reads the feature array itself. Each is stated once as an equation of whole arrays and then read at an index.
-/
import proofs.«137807_j53755810677325_2_alg».proof.Proof.Gen.KernelIdeal.Frame
import proofs.«137807_j53755810677325_2_alg».proof.Proof.Spec
import Idealize.ShloMosaic.Lib.StableHlo.Run
import Idealize.ShloMosaic.Lib.ValueLayout
import Idealize.ShloMosaic.Lib.IdealHost

noncomputable section

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Window 0's array: the neighbour sums of the feature and edge arguments. -/
theorem V_nbrSum (c : Dev nD) :
    (V m c main_v13 : S100000x128.Idx → EReal) = nbrSum (m ((c : Thread nD τ).loc main_arg0)) (m ((c : Thread nD τ).loc main_arg1)) := by
  dsimp only [Gen.V, Gen.hostOps0]
  after_results
  rfl

/-- The vector of reciprocal clamped in-degrees, before it is recast to a column. -/
def recipDeg (e : (⟨S2x640000, .i32⟩ : BufTy).Contents (Elt Ideal)) : (⟨S100000, .f32⟩ : BufTy).Contents (Elt Ideal) :=
  Host.divf (F := Ideal) (broadcastInDim S100000 ![] bcast_S_S100000 (constant (F := Ideal) S_ .f32 0x3F800000#32))
    (maximumf (inDeg e) (broadcastInDim S100000 ![] bcast_S_S100000 (constant (F := Ideal) S_ .f32 0x3F800000#32)))

/-- Entry `r` of it is `1 / max(inDeg r, 1)`. -/
theorem recipDeg_apply (e : (⟨S2x640000, .i32⟩ : BufTy).Contents (Elt Ideal)) (r : Fin 100000) :
    recipDeg e (ix1 r) = Ideal.div 1 (max (inDeg e (ix1 r)) 1) := by
  unfold recipDeg
  rw [hostDivf_apply, maximumf_apply, broadcastInDim_scalar_apply, constant_apply, Ideal.ofBits_one_f32]

/-- Window 2's array: that vector as a column. -/
theorem V_recip (c : Dev nD) :
    (V m c main_v22 : S100000x1.Idx → EReal)
      = shapeCast S100000x1 (recipDeg (m ((c : Thread nD τ).loc main_arg1))) shapeCasts_S100000_S100000x1 := by
  dsimp only [Gen.V, Gen.hostOps0]
  after_results
  rfl

/-- Its entry in row `r`. -/
theorem V_recip_apply (c : Dev nD) (r : Fin 100000) :
    (V m c main_v22 : S100000x1.Idx → EReal) (ix2 r (0 : Fin 1))
      = Ideal.div 1 (max (inDeg (m ((c : Thread nD τ).loc main_arg1)) (ix1 r)) 1) := by
  rw [V_recip, ← recipDeg_apply]
  exact shapeCast_apply _ shapeCasts_S100000_S100000x1 (ix2 r (0 : Fin 1)) (ix1 r) (by
    rw [Shape.rowMajor_val_two, Shape.rowMajor_val_one]
    show r.val = r.val * 1 + 0
    omega)

/-- Window 3's array at `(k, q)`: the first weight matrix at `(q, k)`. -/
theorem V_wl_apply (c : Dev nD) (k q : Fin 128) :
    (V m c main_v24 : S128x128.Idx → EReal) (ix2 k q) = (m ((c : Thread nD τ).loc main_arg2) : S128x128.Idx → EReal) (ix2 q k) := by
  have e : (V m c main_v24 : S128x128.Idx → EReal)
      = (truncf (F := Ideal) .bf16 (transpose S128x128 [1, 0] (m ((c : Thread nD τ).loc main_arg2) : S128x128.Idx → EReal) transposes_S128x128_S128x128_1_0) bitsLt_bf16_f32 : FVec Ideal S128x128 .bf16) := by
    dsimp only [Gen.V, Gen.hostOps0]
    after_results
  rw [e]
  exact transpose_ix2_apply _ transposes_S128x128_S128x128_1_0 k q

/-- Window 4's array at `(k, q)`: the second weight matrix at `(q, k)`. -/
theorem V_wr_apply (c : Dev nD) (k q : Fin 128) :
    (V m c main_v26 : S128x128.Idx → EReal) (ix2 k q) = (m ((c : Thread nD τ).loc main_arg4) : S128x128.Idx → EReal) (ix2 q k) := by
  have e : (V m c main_v26 : S128x128.Idx → EReal)
      = (truncf (F := Ideal) .bf16 (transpose S128x128 [1, 0] (m ((c : Thread nD τ).loc main_arg4) : S128x128.Idx → EReal) transposes_S128x128_S128x128_1_0) bitsLt_bf16_f32 : FVec Ideal S128x128 .bf16) := by
    dsimp only [Gen.V, Gen.hostOps0]
    after_results
  rw [e]
  exact transpose_ix2_apply _ transposes_S128x128_S128x128_1_0 k q

/-- Window 5's array at `(0, q)`: the bias at `q`. -/
theorem V_bias_apply (c : Dev nD) (q : Fin 128) :
    (V m c main_v27 : S1x128.Idx → EReal) (ix2 (0 : Fin 1) q) = (m ((c : Thread nD τ).loc main_arg3) : S128.Idx → EReal) (ix1 q) := by
  have e : (V m c main_v27 : S1x128.Idx → EReal)
      = shapeCast S1x128 (m ((c : Thread nD τ).loc main_arg3)) shapeCasts_S128_S1x128 := by
    dsimp only [Gen.V, Gen.hostOps0]
    after_results
    rfl
  rw [e]
  exact shapeCast_a_1a_apply _ shapeCasts_S128_S1x128 (0 : Fin 1) q

end Cert.KernelIdeal.Sage

end
-- ==== Proof.KernelValue.lean ====
/-
  The kernel's result array is the specified output.

  The grid has 25 points; point `t` works on rows `4000 t … 4000 t + 3999`: it reads those rows of the neighbour sums,
  of the features and of the reciprocal column, the whole of both weight matrices and of the bias row, and writes back
  those rows of the result. So what point `t` writes back is block `t` of the specified output (the block's entry
  `(p, q)` is the stored value at `(p, q)`, whose operands are the arrays' entries of row `4000 t + p`), the 25 blocks
  cover the 100000 rows, and the result array ends holding the specified output everywhere.
-/
import proofs.«137807_j53755810677325_2_alg».proof.Proof.Gen.KernelIdeal.Value
import proofs.«137807_j53755810677325_2_alg».proof.Proof.KernelBlock
import proofs.«137807_j53755810677325_2_alg».proof.Proof.HostArrays

noncomputable section

open scoped BigOperators

namespace Cert.KernelIdeal.Sage

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at grid point `t`: the row-blocked windows (neighbour sums, features, reciprocal column, result)
    are at block row `t`, the weight matrices and the bias at their one block. Decided over the 25 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of grid point `t`'s block is row `4000 t + p` of the array. -/
def row (t : Fin cfg0.N) (p : Fin 4000) : Fin 100000 :=
  ⟨t.val * 4000 + p.val, by have h : t.val < 25 := lt_of_lt_of_eq t.isLt N_0; have := p.isLt; omega⟩

/-- Window 0 (the neighbour sums) at point `t`: entry `(p, k)` of the block is entry `(4000 t + p, k)` of the array, whatever the array holds. -/
theorem rows0 (A : S100000x128.Idx → EReal) (t : Fin cfg0.N) (p : Fin 4000) (k : Fin 128) :
    (((cfg0.win 0).blk t).view.read (Elt Ideal) A : Vec Ideal S4000x128 .f32) (ix2 p k) = A (ix2 (row t p) k) := by
  have e := idx_facts t
  rw [View.read_apply]
  show A _ = A _
  refine congrArg A (funext fun a => Fin.ext ?_)
  match a with
  | ⟨0, _⟩ => show win0_0.index t (0 : Fin 2) * 4000 + 1 * p.val = t.val * 4000 + p.val; rw [e.1]; omega
  | ⟨1, _⟩ => show win0_0.index t (1 : Fin 2) * 128 + 1 * k.val = k.val; rw [e.2.1]; omega
/-- Window 1 (the features): the same rows. -/
theorem rows1 (A : S100000x128.Idx → EReal) (t : Fin cfg0.N) (p : Fin 4000) (k : Fin 128) :
    (((cfg0.win 1).blk t).view.read (Elt Ideal) A : Vec Ideal S4000x128 .f32) (ix2 p k) = A (ix2 (row t p) k) := by
  have e := idx_facts t
  rw [View.read_apply]
  show A _ = A _
  refine congrArg A (funext fun a => Fin.ext ?_)
  match a with
  | ⟨0, _⟩ => show win0_1.index t (0 : Fin 2) * 4000 + 1 * p.val = t.val * 4000 + p.val; rw [e.2.2.1]; omega
  | ⟨1, _⟩ => show win0_1.index t (1 : Fin 2) * 128 + 1 * k.val = k.val; rw [e.2.2.2.1]; omega
/-- Window 2 (the reciprocal column): the same rows of the column. -/
theorem rows2 (A : S100000x1.Idx → EReal) (t : Fin cfg0.N) (p : Fin 4000) :
    (((cfg0.win 2).blk t).view.read (Elt Ideal) A : Vec Ideal S4000x1 .f32) (ix2 p (0 : Fin 1)) = A (ix2 (row t p) (0 : Fin 1)) := by
  have e := idx_facts t
  rw [View.read_apply]
  show A _ = A _
  refine congrArg A (funext fun a => Fin.ext ?_)
  match a with
  | ⟨0, _⟩ => show win0_2.index t (0 : Fin 2) * 4000 + 1 * p.val = t.val * 4000 + p.val; rw [e.2.2.2.2.1]; omega
  | ⟨1, _⟩ => show win0_2.index t (1 : Fin 2) * 1 + 1 * 0 = 0; rw [e.2.2.2.2.2.1]
/-- Window 3 (the first weight matrix) has one block, the whole matrix. -/
theorem whole3 (A : S128x128.Idx → EReal) (t : Fin cfg0.N) (k q : Fin 128) :
    (((cfg0.win 3).blk t).view.read (Elt Ideal) A : Vec Ideal S128x128 .bf16) (ix2 k q) = A (ix2 k q) := by
  have e := idx_facts t
  rw [View.read_apply]
  show A _ = A _
  refine congrArg A (funext fun a => Fin.ext ?_)
  match a with
  | ⟨0, _⟩ => show win0_3.index t (0 : Fin 2) * 128 + 1 * k.val = k.val; rw [e.2.2.2.2.2.2.1]; omega
  | ⟨1, _⟩ => show win0_3.index t (1 : Fin 2) * 128 + 1 * q.val = q.val; rw [e.2.2.2.2.2.2.2.1]; omega
/-- Window 4 (the second weight matrix) likewise. -/
theorem whole4 (A : S128x128.Idx → EReal) (t : Fin cfg0.N) (k q : Fin 128) :
    (((cfg0.win 4).blk t).view.read (Elt Ideal) A : Vec Ideal S128x128 .bf16) (ix2 k q) = A (ix2 k q) := by
  have e := idx_facts t
  rw [View.read_apply]
  show A _ = A _
  refine congrArg A (funext fun a => Fin.ext ?_)
  match a with
  | ⟨0, _⟩ => show win0_4.index t (0 : Fin 2) * 128 + 1 * k.val = k.val; rw [e.2.2.2.2.2.2.2.2.1]; omega
  | ⟨1, _⟩ => show win0_4.index t (1 : Fin 2) * 128 + 1 * q.val = q.val; rw [e.2.2.2.2.2.2.2.2.2.1]; omega
/-- Window 5 (the bias row) likewise. -/
theorem whole5 (A : S1x128.Idx → EReal) (t : Fin cfg0.N) (q : Fin 128) :
    (((cfg0.win 5).blk t).view.read (Elt Ideal) A : Vec Ideal S1x128 .f32) (ix2 (0 : Fin 1) q) = A (ix2 (0 : Fin 1) q) := by
  have e := idx_facts t
  rw [View.read_apply]
  show A _ = A _
  refine congrArg A (funext fun a => Fin.ext ?_)
  match a with
  | ⟨0, _⟩ => show win0_5.index t (0 : Fin 2) * 1 + 1 * 0 = 0; rw [e.2.2.2.2.2.2.2.2.2.2.1]
  | ⟨1, _⟩ => show win0_5.index t (1 : Fin 2) * 128 + 1 * q.val = q.val; rw [e.2.2.2.2.2.2.2.2.2.2.2.1]; omega
/-- Window 6 (the result): entry `(p, q)` of point `t`'s block sits at `(4000 t + p, q)` of the array. -/
theorem rows6 (A : S100000x128.Idx → EReal) (t : Fin cfg0.N) (p : Fin 4000) (q : Fin 128) :
    (((cfg0.win 6).blk t).view.read (Elt Ideal) A : Vec Ideal S4000x128 .f32) (ix2 p q) = A (ix2 (row t p) q) := by
  have e := idx_facts t
  rw [View.read_apply]
  show A _ = A _
  refine congrArg A (funext fun a => Fin.ext ?_)
  match a with
  | ⟨0, _⟩ => show win0_6.index t (0 : Fin 2) * 4000 + 1 * p.val = t.val * 4000 + p.val; rw [e.2.2.2.2.2.2.2.2.2.2.2.2.1]; omega
  | ⟨1, _⟩ => show win0_6.index t (1 : Fin 2) * 128 + 1 * q.val = q.val; rw [e.2.2.2.2.2.2.2.2.2.2.2.2.2]; omega
/-- The result window's blocks are whole: reading a stored block through the window's cut changes nothing. -/
theorem cut_apply (t : Fin cfg0.N) (X : Vec Ideal S4000x128 .f32) (y : S4000x128.Idx) :
    (cfg0.win 6).cut (grid0.coords t) X y = X y := rfl

/-- The six input blocks at point `t`, as entries of the arrays the region finds. -/
theorem blk_nbrSum (c : Dev nD) (t : Fin cfg0.N) (p : Fin 4000) (k : Fin 128) :
    (iblk m c 0 t : Vec Ideal S4000x128 .f32) (ix2 p k) = (V m c main_v13 : S100000x128.Idx → EReal) (ix2 (row t p) k) :=
  rows0 (V m c main_v13) t p k
theorem blk_x (c : Dev nD) (t : Fin cfg0.N) (p : Fin 4000) (k : Fin 128) :
    (iblk m c 1 t : Vec Ideal S4000x128 .f32) (ix2 p k) = (V m c main_arg0 : S100000x128.Idx → EReal) (ix2 (row t p) k) :=
  rows1 (V m c main_arg0) t p k
theorem blk_recip (c : Dev nD) (t : Fin cfg0.N) (p : Fin 4000) :
    (iblk m c 2 t : Vec Ideal S4000x1 .f32) (ix2 p (0 : Fin 1)) = (V m c main_v22 : S100000x1.Idx → EReal) (ix2 (row t p) (0 : Fin 1)) :=
  rows2 (V m c main_v22) t p
theorem blk_wl (c : Dev nD) (t : Fin cfg0.N) (k q : Fin 128) :
    (iblk m c 3 t : Vec Ideal S128x128 .bf16) (ix2 k q) = (V m c main_v24 : S128x128.Idx → EReal) (ix2 k q) :=
  whole3 (V m c main_v24) t k q
theorem blk_wr (c : Dev nD) (t : Fin cfg0.N) (k q : Fin 128) :
    (iblk m c 4 t : Vec Ideal S128x128 .bf16) (ix2 k q) = (V m c main_v26 : S128x128.Idx → EReal) (ix2 k q) :=
  whole4 (V m c main_v26) t k q
theorem blk_bias (c : Dev nD) (t : Fin cfg0.N) (q : Fin 128) :
    (iblk m c 5 t : Vec Ideal S1x128 .f32) (ix2 (0 : Fin 1) q) = (V m c main_v27 : S1x128.Idx → EReal) (ix2 (0 : Fin 1) q) :=
  whole5 (V m c main_v27) t q

/-- The specified output of the launch contents of the five arguments. -/
abbrev result (c : Dev nD) : S100000x128.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

/-- What grid point `t` writes back is block `t` of the specified output. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  rw [cut_apply, rows6]
  refine (pay_apply (iblk m c 0 t) (iblk m c 1 t) (iblk m c 2 t) (iblk m c 3 t) (iblk m c 4 t) (iblk m c 5 t) p q).trans ?_
  show _ = entry (nbrSum (m ((c : Thread nD τ).loc main_arg0)) (m ((c : Thread nD τ).loc main_arg1))) (m ((c : Thread nD τ).loc main_arg0))
    (inDeg (m ((c : Thread nD τ).loc main_arg1))) (m ((c : Thread nD τ).loc main_arg2)) (m ((c : Thread nD τ).loc main_arg4))
    (m ((c : Thread nD τ).loc main_arg3)) (row t p) q
  unfold entry
  refine congrArg₂ (· + ·) (congrArg₂ (· + ·) (Finset.sum_congr rfl fun k _ => ?_) (Finset.sum_congr rfl fun k _ => ?_)) ?_
  · rw [blk_nbrSum, blk_recip, blk_wl, V_nbrSum, V_recip_apply, V_wl_apply]
  · rw [blk_x, blk_wr, V_main_arg0, V_wr_apply]
  · rw [blk_bias, V_bias_apply]

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v28).slice (win0_6.rect t)).set ↔ _
  rw [View.set_slice_whole, Rect.mem_set_unit]
  exact Iff.rfl

/-- Every row of the array is in some point's block: row `r` in point `r / 4000`'s. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 128 ≤ (i 1).val ∧ (i 1).val < win0_6.index t (1 : Fin 2) * 128 + 128
    rw [e1]; omega

/-- The result array after the run is the specified output. -/
theorem final (c : Dev nD) : (dats m 0 c).arrAt 6 cfg0.N = result m c :=
  (dats m 0 c).arrAt_eq_of_cover 6 (result m c) (fun t _ => flushed_eq m c t) cover

/-- The kernel program's run: the result array at the specified output, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Sage

end
-- ==== Proof.MeanLaw.lean ====
/-
  The arithmetic that joins the two programs, on the extended reals.

  One output entry of the layer is a sum of three terms: the neighbour mean of a row pushed through one weight
  matrix, the row itself pushed through a second weight matrix, and a bias. The two programs differ in two places
  only: the mean is taken either as a quotient by the clamped in-degree or as a product with the reciprocal of the
  clamped in-degree, and the bias is added either before or after the second matrix product.

  The clamped in-degree is `max d 1`, which is at least one and so never zero; off zero the quotient of the
  extended reals is the product with the inverse, so both spellings of the mean are `a * (max d 1)⁻¹`. The order of
  the three summands is immaterial because addition of extended reals is commutative and associative. Neither step
  needs any entry to be finite.
-/
import Idealize.ShloMosaic.PureOps.Ideal
import Mathlib.Algebra.BigOperators.Group.Finset.Basic

open scoped BigOperators

namespace Cert.SageLaw

open Idealize.ShloMosaic

/-- The clamped in-degree is not zero: it is at least one. -/
theorem clamp_ne_zero (d : EReal) : max d 1 ≠ 0 :=
  (lt_of_lt_of_le zero_lt_one (le_max_right d 1)).ne'

/-- Dividing by the clamped in-degree is multiplying by its reciprocal. -/
theorem div_clamp (a d : EReal) : Ideal.div a (max d 1) = a * Ideal.div 1 (max d 1) := by
  unfold Ideal.div
  rw [if_neg (clamp_ne_zero d), if_neg (clamp_ne_zero d), one_mul]

/-- One output entry, as the reference spells it (quotient, bias in the middle) and as the kernel spells it
    (reciprocal, bias last). -/
theorem entry_eq {ι : Type} (s : Finset ι) (A X Wl Wr : ι → EReal) (d b : EReal) :
    ((∑ k ∈ s, Ideal.div (A k) (max d 1) * Wl k) + b) + ∑ k ∈ s, X k * Wr k
      = ((∑ k ∈ s, (A k * Ideal.div 1 (max d 1)) * Wl k) + ∑ k ∈ s, X k * Wr k) + b := by
  rw [add_right_comm]
  refine congrArg (· + b) (congrArg (· + ∑ k ∈ s, X k * Wr k) (Finset.sum_congr rfl fun k _ => ?_))
  rw [div_clamp]

end Cert.SageLaw
-- ==== Proof.RefValue.lean ====
/-
  The reference computes the same function of the arguments.

  The reference builds the neighbour sums and the in-degrees by the very host operations the kernel's program uses, divides
  each row of sums by its clamped in-degree, multiplies by the first weight matrix transposed, adds the bias, and adds the
  features times the second weight matrix transposed. Read at an index `(r, q)` this is
      (Σ_k (nbrSum[r,k] / max(inDeg[r], 1)) · W_l[q,k]  +  b[q])  +  Σ_k x[r,k] · W_r[q,k],
  which is the specified entry by the law of the quotient by a clamped in-degree and a reordering of the three summands.
-/
import proofs.«137807_j53755810677325_2_alg».proof.Proof.Gen.ReferenceIdeal.Read
import proofs.«137807_j53755810677325_2_alg».proof.Proof.Spec
import proofs.«137807_j53755810677325_2_alg».proof.Proof.MeanLaw
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The reference's neighbour sums are the kernel program's: the same gather and scatter-add of the same arguments. -/
theorem nbrSum_same (x0 : (⟨S100000x128, .f32⟩ : BufTy).Contents (Elt Ideal)) (x1 : (⟨S2x640000, .i32⟩ : BufTy).Contents (Elt Ideal)) :
    val_main_v13 (F := Ideal) x0 x1 = Cert.KernelIdeal.Sage.nbrSum x0 x1 := rfl

/-- The reference's in-degrees are the kernel program's: the same scatter-add of ones. -/
theorem inDeg_same (x1 : (⟨S2x640000, .i32⟩ : BufTy).Contents (Elt Ideal)) :
    val_main_v17 (F := Ideal) x1 = Cert.KernelIdeal.Sage.inDeg x1 := rfl

theorem lidx24 (r : Fin 100000) (q k : Fin 128) : lidx_main_v24 (ix2 r q) k = ix2 r k :=
  funext fun a => Fin.ext (by match a with | ⟨0, _⟩ => rfl | ⟨1, _⟩ => rfl)
theorem ridx24 (r : Fin 100000) (q k : Fin 128) : idx_main_v23 (ridx_main_v24 (ix2 r q) k) = ix2 q k :=
  funext fun a => Fin.ext (by match a with | ⟨0, _⟩ => rfl | ⟨1, _⟩ => rfl)
theorem lidx29 (r : Fin 100000) (q k : Fin 128) : lidx_main_v29 (ix2 r q) k = ix2 r k :=
  funext fun a => Fin.ext (by match a with | ⟨0, _⟩ => rfl | ⟨1, _⟩ => rfl)
theorem ridx29 (r : Fin 100000) (q k : Fin 128) : idx_main_v28 (ridx_main_v29 (ix2 r q) k) = ix2 q k :=
  funext fun a => Fin.ext (by match a with | ⟨0, _⟩ => rfl | ⟨1, _⟩ => rfl)
theorem idxDeg (r : Fin 100000) (k : Fin 128) : idx_main_v20 (idx_main_v21 (ix2 r k)) = ix1 r :=
  funext fun a => Fin.ext (by match a with | ⟨0, _⟩ => rfl)
theorem idxBias (r : Fin 100000) (q : Fin 128) : idx_main_v25 (idx_main_v26 (ix2 r q)) = ix1 q :=
  funext fun a => Fin.ext (by match a with | ⟨0, _⟩ => rfl)

/-- The divisor at row `r` (any column): the clamped in-degree `max(inDeg r, 1)`. -/
theorem divisor_at (x1 : (⟨S2x640000, .i32⟩ : BufTy).Contents (Elt Ideal)) (r : Fin 100000) (k : Fin 128) :
    val_main_v21 (F := Ideal) x1 (ix2 r k) = max (Cert.KernelIdeal.Sage.inDeg x1 (ix1 r)) 1 := by
  rw [val_main_v21_apply, val_main_v20_apply, idxDeg, val_main_v19_apply, val_main_v18_apply, val_main_cst_3_apply,
    inDeg_same, Ideal.maximumf_def, Ideal.ofBits_def, Ideal.ofBits_one_f32]

/-- The mean's entry `(r, k)`: the neighbour sum over the clamped in-degree. -/
theorem mean_at (x0 : (⟨S100000x128, .f32⟩ : BufTy).Contents (Elt Ideal)) (x1 : (⟨S2x640000, .i32⟩ : BufTy).Contents (Elt Ideal))
    (r : Fin 100000) (k : Fin 128) :
    val_main_v22 (F := Ideal) x0 x1 (ix2 r k)
      = Ideal.div (Cert.KernelIdeal.Sage.nbrSum x0 x1 (ix2 r k)) (max (Cert.KernelIdeal.Sage.inDeg x1 (ix1 r)) 1) := by
  rw [val_main_v22_apply, divisor_at, nbrSum_same, Ideal.hostDivf_def]

/-- The mean through the first weight matrix, at `(r, q)`. -/
theorem left_at (x0 : (⟨S100000x128, .f32⟩ : BufTy).Contents (Elt Ideal)) (x1 : (⟨S2x640000, .i32⟩ : BufTy).Contents (Elt Ideal))
    (x2 : (⟨S128x128, .f32⟩ : BufTy).Contents (Elt Ideal)) (r : Fin 100000) (q : Fin 128) :
    val_main_v24 (F := Ideal) x0 x1 x2 (ix2 r q)
      = ∑ k : Fin 128, Ideal.div (Cert.KernelIdeal.Sage.nbrSum x0 x1 (ix2 r k)) (max (Cert.KernelIdeal.Sage.inDeg x1 (ix1 r)) 1) * x2 (ix2 q k) := by
  rw [val_main_v24_apply]
  refine Finset.sum_congr rfl fun k _ => ?_
  rw [lidx24, mean_at, val_main_v23_apply, ridx24]

/-- The features through the second weight matrix, at `(r, q)`. -/
theorem right_at (x0 : (⟨S100000x128, .f32⟩ : BufTy).Contents (Elt Ideal)) (x4 : (⟨S128x128, .f32⟩ : BufTy).Contents (Elt Ideal))
    (r : Fin 100000) (q : Fin 128) :
    val_main_v29 (F := Ideal) x0 x4 (ix2 r q) = ∑ k : Fin 128, x0 (ix2 r k) * x4 (ix2 q k) := by
  rw [val_main_v29_apply]
  refine Finset.sum_congr rfl fun k _ => ?_
  rw [lidx29, val_main_v28_apply, ridx29]

/-- The broadcast bias at `(r, q)`. -/
theorem bias_at (x3 : (⟨S128, .f32⟩ : BufTy).Contents (Elt Ideal)) (r : Fin 100000) (q : Fin 128) :
    val_main_v26 (F := Ideal) x3 (ix2 r q) = x3 (ix1 q) := by
  rw [val_main_v26_apply, val_main_v25_apply, idxBias]

/-- The reference's result is the specified output of the five arguments. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4 = Cert.KernelIdeal.Sage.out x0 x1 x2 x3 x4 := by
  funext i
  obtain ⟨r, q, rfl⟩ : ∃ (r : Fin 100000) (q : Fin 128), i = ix2 r q := ⟨i 0, i 1, eq_ix2 i⟩
  rw [val_main_v30_apply, val_main_v27_apply, left_at, right_at, bias_at, Ideal.addf_def, Ideal.addf_def]
  exact Cert.SageLaw.entry_eq Finset.univ (fun k => Cert.KernelIdeal.Sage.nbrSum x0 x1 (ix2 r k)) (fun k => x0 (ix2 r k))
    (fun k => x2 (ix2 q k)) (fun k => x4 (ix2 q k)) (Cert.KernelIdeal.Sage.inDeg x1 (ix1 r)) (x3 (ix1 q))

end Cert.ReferenceIdeal.RefValue

end
-- ==== Proof.lean ====
/-
  A graph layer that averages each node's neighbours: the kernel against its reference, over the extended reals.

  For 100000 nodes with 128 features and 640000 edges, both programs first form, on the host and by the same
  operations, the per-node sum of the source rows of the incoming edges and the per-node count of incoming edges.
  The reference then computes
      (sum / max(count, 1)) W_lᵀ + b + x W_rᵀ
  on the host. The kernel's program forms the reciprocal `1 / max(count, 1)` on the host and hands 25 row blocks of
  4000 nodes to a kernel that computes `(sum · reciprocal) W_lᵀ + x W_rᵀ + b` per block, the operands of the two matrix
  products rounded to bf16, which at the ideal instance is the identity.

  Both are the one function `Sage.out` of the five arguments (Proof/Spec.lean):
    * Proof/KernelBlock.lean reads one block's stored value at an index (two sums over the contracted axis and a bias);
    * Proof/HostArrays.lean reads the arrays the host prepared for the kernel's windows at an index;
    * Proof/KernelValue.lean puts the 25 blocks together: the result array is `Sage.out` of the arguments;
    * Proof/RefValue.lean reads the reference's operations at an index and joins the two spellings by
      Proof/MeanLaw.lean: a quotient by a clamped count is the product with its reciprocal (the clamped count is at
      least one, hence not zero), and the three summands may be added in either order. No entry has to be finite.
  The three programs' runs terminate with their arguments unchanged by the generated frame proofs (for the reference,
  its generated run with the result dropped); the idealization rewrote nothing, so there is nothing to preserve.
-/
import proofs.«137807_j53755810677325_2_alg».proof.Defs
import proofs.«137807_j53755810677325_2_alg».proof.Proof.Gen.Kernel
import proofs.«137807_j53755810677325_2_alg».proof.Proof.Gen.Kernel.Skeleton
import proofs.«137807_j53755810677325_2_alg».proof.Proof.Gen.Kernel.Launch
import proofs.«137807_j53755810677325_2_alg».proof.Proof.Gen.Kernel.Points
import proofs.«137807_j53755810677325_2_alg».proof.Proof.Gen.Kernel.Frame
import proofs.«137807_j53755810677325_2_alg».proof.Proof.Gen.KernelIdeal
import proofs.«137807_j53755810677325_2_alg».proof.Proof.Gen.KernelIdeal.Skeleton
import proofs.«137807_j53755810677325_2_alg».proof.Proof.Gen.KernelIdeal.Launch
import proofs.«137807_j53755810677325_2_alg».proof.Proof.Gen.KernelIdeal.Points
import proofs.«137807_j53755810677325_2_alg».proof.Proof.Gen.KernelIdeal.Frame
import proofs.«137807_j53755810677325_2_alg».proof.Proof.Gen.ReferenceIdeal
import proofs.«137807_j53755810677325_2_alg».proof.Proof.Gen.Pre_finite_inputs
import proofs.«137807_j53755810677325_2_alg».proof.Proof.Gen.KernelIdeal.Value
import proofs.«137807_j53755810677325_2_alg».proof.Proof.Gen.ReferenceIdeal.Run
import proofs.«137807_j53755810677325_2_alg».proof.Proof.Gen.ReferenceIdeal.Read
import proofs.«137807_j53755810677325_2_alg».proof.Proof.KernelValue
import proofs.«137807_j53755810677325_2_alg».proof.Proof.RefValue
import Idealize.ShloMosaic.Adequacy
import Idealize.ShloMosaic.Init

noncomputable section

namespace Cert.Proof

open Idealize.ShloMosaic Idealize.SL.Sem

/-- The kernel's program, word level: it runs and leaves its arguments unchanged. -/
theorem frame_kernel : Cert.frame_Kernel := fun m ρ _ => Cert.Kernel.Gen.frame m ρ

/-- The same program read at the ideal instance. -/
theorem frame_kernelIdeal : Cert.frame_KernelIdeal := fun m ρ _ => Cert.KernelIdeal.Gen.frame m ρ

/-- The reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at `Sage.out` of them. -/
theorem algebraic : Cert.algebraic_KernelIdeal_ReferenceIdeal := by
  intro m ρ m' ρ' _ hagree
  refine ⟨fun c => Cert.KernelIdeal.Sage.result m c, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
